-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg2 : IVec S1600000 32) (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_c_8 : IVec S_ 32 := constantI S_ 32 0#32
  let main_v24 : IVec S1600000 32 := broadcastInDim S1600000 ![] bcast_S_S1600000 main_c_8
  let main_v25 : IVec S1600000 1 := cmpi .sge main_arg2 main_v24
  let main_c_9 : IVec S_ 1 := constantI S_ 1 1#1
  let main_v26 : IVec S_ 1 := (fun x v => Host.reduce IntOp.andi x v reducesTo_S1600000_S_d0 h_S_) main_v25 main_c_9
  let main_v27 : IVec S_ 1 := andi main_v23 main_v26
  main_v27

def fn {F : FTy → Type} [FloatOps F] (main_arg0 : FVec F S100000x128 .f32) (main_arg1 : IVec S1600000 32) (main_arg2 : IVec S1600000 32) (main_arg3 : FVec F S128x128 .f32) (main_arg4 : FVec F S128 .f32) (main_arg5 : FVec F S128x128 .f32) (main_arg6 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_v13 main_v16
-- ==== Kernel.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S5000x128 : Shape := ⟨2, ![5000, 128]⟩

abbrev nBuf : Space → Nat
  | .hbm => 31
  | .vmem => 8
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S100000x128, .f32⟩
  | .hbm, ⟨19, _⟩ => ⟨S_, .i32⟩
  | .hbm, ⟨20, _⟩ => ⟨S1600000, .i32⟩
  | .hbm, ⟨21, _⟩ => ⟨S1600000, .i1⟩
  | .hbm, ⟨22, _⟩ => ⟨S_, .i32⟩
  | .hbm, ⟨23, _⟩ => ⟨S1600000, .i32⟩
  | .hbm, ⟨24, _⟩ => ⟨S1600000, .i32⟩
  | .hbm, ⟨25, _⟩ => ⟨S1600000, .i32⟩
  | .hbm, ⟨26, _⟩ => ⟨S1600000x1, .i32⟩
  | .hbm, ⟨27, _⟩ => ⟨S100000x128, .f32⟩
  | .hbm, ⟨28, _⟩ => ⟨S1x128, .f32⟩
  | .hbm, ⟨29, _⟩ => ⟨S1x128, .f32⟩
  | .hbm, ⟨30, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_c_1 : Ref sig .tc := ⟨.hbm, 19, rfl⟩
abbrev main_v9 : Ref sig .tc := ⟨.hbm, 20, rfl⟩
abbrev main_v10 : Ref sig .tc := ⟨.hbm, 21, rfl⟩
abbrev main_c_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v15) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v17) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v18) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S1600000 : Shape := ⟨1, ![1600000]⟩
abbrev S128x128 : Shape := ⟨2, ![128, 128]⟩
abbrev S128 : Shape := ⟨1, ![128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩

abbrev nBuf : Space → Nat
  | .hbm => 35
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S1600000, .i32⟩
  | .hbm, ⟨2, _⟩ => ⟨S1600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S_, .i32⟩
  | .hbm, ⟨8, _⟩ => ⟨S1600000, .i32⟩
  | .hbm, ⟨9, _⟩ => ⟨S1600000, .i1⟩
  | .hbm, ⟨10, _⟩ => ⟨S_, .i32⟩
  | .hbm, ⟨11, _⟩ => ⟨S1600000, .i32⟩
  | .hbm, ⟨12, _⟩ => ⟨S1600000, .i32⟩
  | .hbm, ⟨13, _⟩ => ⟨S1600000, .i32⟩
  | .hbm, ⟨14, _⟩ => ⟨S1600000x1, .i32⟩
  | .hbm, ⟨15, _⟩ => ⟨S1600000x128, .f32⟩
  | .hbm, ⟨16, _⟩ => ⟨S_, .f32⟩
  | .hbm, ⟨17, _⟩ => ⟨S100000x128, .f32⟩
  | .hbm, ⟨18, _⟩ => ⟨S1600000x1, .i32⟩
  | .hbm, ⟨19, _⟩ => ⟨S100000x128, .f32⟩
  | .hbm, ⟨20, _⟩ => ⟨S_, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S1x128, .f32⟩
  | .hbm, ⟨26, _⟩ => ⟨S100000x128, .f32⟩
  | .hbm, ⟨27, _⟩ => ⟨S100000x128, .f32⟩
  | .hbm, ⟨28, _⟩ => ⟨S_, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S1x128, .f32⟩
  | .hbm, ⟨33, _⟩ => ⟨S100000x128, .f32⟩
  | .hbm, ⟨34, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_call0_cst : Ref sig .tc := ⟨.hbm, 28, rfl⟩
abbrev main_call0_v0 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibLayers.lean ====
/-
  The layers of a three-layer graph network's node update, read as functions of rows at the ideal values.

  After the neighbours' rows have been summed into each node, a layer is a dense map of the node's row,
  sum_k x(r, k) * w(k, n) + b(n), followed either by relu, max(., 0), or, in the last layer, by the log-softmax of
  the row:  y(r, n) - m(r) - log (sum_k exp (y(r, k) - m(r)))  with m(r) the largest entry of row r.  Every entry of
  a layer's result depends on one row of its input only; that is what lets a kernel that walks over blocks of rows be
  compared with a reference that treats all rows at once.

  Each layer is read to its row function in two spellings: the kernel's (operands narrowed to bf16, which is the
  identity at the ideal values; a matrix product into a zero splat; lane reductions that carry their neutral element;
  a vector cast to a column and repeated along the rows) and the host's (dot_general; reductions with an initial
  value; broadcasts in two steps; one more maximum against -inf, which is the identity because -inf is the least
  extended real).  No law of arithmetic beyond 0 + x = x and max (-inf) x = x is used, so nothing here needs the
  inputs to be finite.  All of it is generic in the extents.  (The dense map itself, `dense`, and the two column readings
  come from the two lemma files imported first: a copy of this file needs copies of those beside it.)
-/
import proofs.«110534_j65240553226749_2_alg».proof.Proof.LibDense
import proofs.«110534_j65240553226749_2_alg».proof.Proof.LibLayout
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibLayers

open Idealize.ShloMosaic Idealize.ShloMosaic.ValueIdx Cert.LibDense

/-! ## Pointwise readings -/

theorem exp_apply {s : Shape} {φ : FTy} (x : FVec Ideal s φ) (i : s.Idx) : exp x i = Ideal.exp (x i) := rfl
theorem log_apply {s : Shape} {φ : FTy} (x : FVec Ideal s φ) (i : s.Idx) : log x i = Ideal.log (x i) := rfl
theorem hostExp_apply {s : Shape} {φ : FTy} (x : FVec Ideal s φ) (i : s.Idx) : Host.exp x i = Ideal.exp (x i) := rfl
theorem hostLog_apply {s : Shape} {φ : FTy} (x : FVec Ideal s φ) (i : s.Idx) : Host.log x i = Ideal.log (x i) := rfl

/-! ## relu -/

/-- relu on every entry: the larger of the entry and the f32 zero. -/
def relu {s : Shape} (y : s.Idx → EReal) : s.Idx → EReal := fun j => max (y j) (Ideal.ofBits .f32 0x00000000#32)

/-- The kernel's spelling: the maximum with a splatted zero. -/
theorem relu_kernel {s : Shape} (y : FVec Ideal s .f32) :
    maximumf y (broadcast s (Scalar.ofBits (F := Ideal) .f32 0x00000000#32)) = relu y := rfl

/-- The host's spelling: the maximum with a broadcast zero constant. -/
theorem relu_host {s : Shape} (y : FVec Ideal s .f32) (hS : (⟨0, ![]⟩ : Shape).BroadcastsInDim s (![] : Fin 0 → Fin s.rank)) :
    maximumf y (broadcastInDim s ![] hS (constant (F := Ideal) ⟨0, ![]⟩ .f32 0x00000000#32)) = relu y := by
  funext j
  show max (y j) (Ideal.ofBits .f32 0x00000000#32) = relu y j
  rfl

/-- relu of an entry depends on that entry only. -/
theorem relu_congr {s s' : Shape} (y : s.Idx → EReal) (y' : s'.Idx → EReal) (j : s.Idx) (j' : s'.Idx) (h : y j = y' j') :
    relu y j = relu y' j' := by
  show max (y j) _ = max (y' j') _
  rw [h]

/-! ## The dense layer with its bias given as one row -/

/-- A [1, N] row read as the [N] vector of its entries. -/
def rowVec {N : Nat} (b1 : (⟨2, ![1, N]⟩ : Shape).Idx → EReal) : (⟨1, ![N]⟩ : Shape).Idx → EReal :=
  fun i => b1 (ix2 (0 : Fin 1) (i 0 : Fin N))

/-- A vector cast to one row, read back as a vector, is the vector. -/
theorem rowVec_shapeCast {N : Nat} (b : (⟨1, ![N]⟩ : Shape).Idx → EReal) (h : (⟨1, ![N]⟩ : Shape).ShapeCasts ⟨2, ![1, N]⟩) :
    rowVec (shapeCast ⟨2, ![1, N]⟩ b h) = b := by
  funext i
  obtain ⟨q, rfl⟩ : ∃ q : Fin N, i = ix1 q := ⟨i 0, eq_ix1 i⟩
  exact shapeCast_apply b h (ix2 (0 : Fin 1) q) (ix1 q) (by
    rw [Shape.rowMajor_val_two, Shape.rowMajor_val_one]; show q.val = 0 * N + q.val; omega)

/-- The kernel's dense layer when the bias arrives as one row: both operands pass through an identity cast and a
    narrowing to bf16, the product accumulates into a zero splat, the row is cast to itself and repeated down the rows. -/
theorem dense_kernel_row {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb) = dense A K N x w (rowVec b1) := by
  rw [shapeCast_self x hx, shapeCast_self b1 h1]
  funext j
  rw [addf_apply]
  have eb : broadcastTo ⟨2, ![A, N]⟩ b1 hb j = b1 (ix2 (0 : Fin 1) (j 1 : Fin N)) :=
    broadcastTo_apply b1 hb j (ix2 (0 : Fin 1) (j 1 : Fin N)) (by
      intro a
      match a with
      | ⟨0, _⟩ => rfl
      | ⟨1, _⟩ =>
        show (j 1).val = if N = 1 then 0 else (j 1).val
        split
        · have := (j 1).isLt; have e : (j 1).val < N := this; omega
        · rfl)
  rw [eb]
  refine congrArg (· + b1 (ix2 (0 : Fin 1) (j 1 : Fin N))) ?_
  refine (Ideal.matmul_constant_zero_apply (DotDims.plain A K N) none (truncf .bf16 x hlt) (truncf .bf16 w hlt) j).trans ?_
  exact plain_sum A K N x w j

/-! ## The host's column layouts -/

/-- A column broadcast along the rows reads the column's entry of the row. -/
theorem col2_host {A N : Nat} {α : Type} (hbc : (⟨2, ![A, 1]⟩ : Shape).BroadcastsInDim ⟨2, ![A, N]⟩ ![0, 1])
    (u : (⟨2, ![A, 1]⟩ : Shape).Idx → α) (p : Fin A) (q : Fin N) :
    broadcastInDim ⟨2, ![A, N]⟩ ![0, 1] hbc u (ix2 p q) = u (ix2 p (0 : Fin 1)) := by
  refine broadcastInDim_apply ![0, 1] hbc u (ix2 p q) (ix2 p (0 : Fin 1)) ?_
  intro a
  match a with
  | ⟨0, _⟩ =>
    show p.val = if A = 1 then 0 else p.val
    split
    · have := p.isLt; omega
    · rfl
  | ⟨1, _⟩ => rfl

/-- A vector broadcast to a column along axis 0 reads the vector at the row. -/
theorem col1_host {A : Nat} {α : Type} (hd : (⟨1, ![A]⟩ : Shape).BroadcastsInDim ⟨2, ![A, 1]⟩ ![0])
    (v : (⟨1, ![A]⟩ : Shape).Idx → α) (p : Fin A) (z : Fin 1) :
    broadcastInDim ⟨2, ![A, 1]⟩ ![0] hd v (ix2 p z) = v (ix1 p) := by
  refine broadcastInDim_apply ![0] hd v (ix2 p z) (ix1 p) ?_
  intro a
  match a with
  | ⟨0, _⟩ =>
    show p.val = if A = 1 then 0 else p.val
    split
    · have := p.isLt; omega
    · rfl

/-- The two steps together: a vector laid out as a column and repeated along the rows reads the vector at the row. -/
theorem col_host {A N : Nat} {α : Type} (hd : (⟨1, ![A]⟩ : Shape).BroadcastsInDim ⟨2, ![A, 1]⟩ ![0])
    (hbc : (⟨2, ![A, 1]⟩ : Shape).BroadcastsInDim ⟨2, ![A, N]⟩ ![0, 1]) (v : (⟨1, ![A]⟩ : Shape).Idx → α)
    (p : Fin A) (q : Fin N) :
    broadcastInDim ⟨2, ![A, N]⟩ ![0, 1] hbc (broadcastInDim ⟨2, ![A, 1]⟩ ![0] hd v) (ix2 p q) = v (ix1 p) :=
  (col2_host hbc _ p q).trans (col1_host hd v p 0)

/-! ## The log-softmax of every row -/

/-- The largest entry of row p, starting from -inf. -/
def rowMax {A N : Nat} (y : (⟨2, ![A, N]⟩ : Shape).Idx → EReal) (p : Fin A) : EReal :=
  (Finset.univ : Finset (Fin N)).fold max (Ideal.ofBits .f32 0xFF800000#32) fun k => y (ix2 p k)

/-- The log-softmax of each row: the entry less the row's maximum, less the logarithm of the row's sum of the
    exponentials of such differences. -/
def logSoftmax {A N : Nat} (y : (⟨2, ![A, N]⟩ : Shape).Idx → EReal) : (⟨2, ![A, N]⟩ : Shape).Idx → EReal :=
  fun j => (y j - rowMax y (j 0 : Fin A))
    - Ideal.log (∑ k : Fin N, Ideal.exp (y (ix2 (j 0 : Fin A) k) - rowMax y (j 0 : Fin A)))

/-- Two matrices that agree on a row have the same maximum there. -/
theorem rowMax_congr {A A' N : Nat} (y : (⟨2, ![A, N]⟩ : Shape).Idx → EReal) (y' : (⟨2, ![A', N]⟩ : Shape).Idx → EReal)
    (p : Fin A) (r : Fin A') (h : ∀ k : Fin N, y (ix2 p k) = y' (ix2 r k)) : rowMax y p = rowMax y' r := by
  unfold rowMax
  exact congrArg (fun f => (Finset.univ : Finset (Fin N)).fold max (Ideal.ofBits .f32 0xFF800000#32) f) (funext h)

/-- Entry (p, q) of the log-softmax depends on row p only. -/
theorem logSoftmax_row {A A' N : Nat} (y : (⟨2, ![A, N]⟩ : Shape).Idx → EReal) (y' : (⟨2, ![A', N]⟩ : Shape).Idx → EReal)
    (p : Fin A) (r : Fin A') (q : Fin N) (h : ∀ k : Fin N, y (ix2 p k) = y' (ix2 r k)) :
    logSoftmax y (ix2 p q) = logSoftmax y' (ix2 r q) := by
  have hm := rowMax_congr y y' p r h
  show (y (ix2 p q) - rowMax y p) - Ideal.log (∑ k : Fin N, Ideal.exp (y (ix2 p k) - rowMax y p))
    = (y' (ix2 r q) - rowMax y' r) - Ideal.log (∑ k : Fin N, Ideal.exp (y' (ix2 r k) - rowMax y' r))
  rw [hm, h q, Finset.sum_congr rfl fun k _ => by rw [h k]]

/-- The kernel's row maximum, cast to a column and repeated along the rows, reads the row's maximum. -/
theorem rowMax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (hc : (⟨1, ![A]⟩ : Shape).ShapeCasts ⟨2, ![A, 1]⟩) (hb : (⟨2, ![A, 1]⟩ : Shape).Broadcasts ⟨2, ![A, N]⟩)
    (p : Fin A) (q : Fin N) :
    broadcastTo ⟨2, ![A, N]⟩ (shapeCast ⟨2, ![A, 1]⟩ (multiReduction .maximumf [1] ⟨1, ![A]⟩ y 0xFF800000#32 hr hφ hm) hc) hb (ix2 p q)
      = rowMax y p := by
  rw [LibLayout.broadcastTo_a1_ab_apply, LibLayout.shapeCast_a_a1_apply]
  refine (Ideal.multiReduction_maximumf_single y _ hr hφ hm (ix1 p)).trans ?_
  show (Finset.univ : Finset (Fin N)).fold max (Ideal.ofBits .f32 0xFF800000#32) (y ∘ hr.lift (ix1 p)) = rowMax y p
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The kernel's log-softmax of a tile of rows is the log-softmax of each of its rows. -/
theorem logSoftmax_kernel {A N : Nat} (y : FVec Ideal ⟨2, ![A, N]⟩ .f32)
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hb))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hb)))
        0x00000000#32 hr hφ ha) hc)) hb)
      = logSoftmax y := by
  have hsh : subf y (broadcastTo ⟨2, ![A, N]⟩ (shapeCast ⟨2, ![A, 1]⟩ (multiReduction .maximumf [1] ⟨1, ![A]⟩ y 0xFF800000#32 hr hφ hm) hc) hb)
      = fun j => y j - rowMax y (j 0 : Fin A) := by
    funext j
    obtain ⟨p, q, rfl⟩ : ∃ (p : Fin A) (q : Fin N), j = ix2 p q := ⟨j 0, j 1, eq_ix2 j⟩
    rw [subf_apply, rowMax_kernel y hr hφ hm hc hb p q]
    rfl
  rw [hsh]
  funext j
  obtain ⟨p, q, rfl⟩ : ∃ (p : Fin A) (q : Fin N), j = ix2 p q := ⟨j 0, j 1, eq_ix2 j⟩
  rw [subf_apply, LibLayout.broadcastTo_a1_ab_apply, log_apply, LibLayout.shapeCast_a_a1_apply]
  show (y (ix2 p q) - rowMax y p) - Ideal.log _ = (y (ix2 p q) - rowMax y p) - Ideal.log _
  refine congrArg (fun s => (y (ix2 p q) - rowMax y p) - Ideal.log s) ?_
  refine (Ideal.multiReduction_add_single _ _ hr hφ ha (ix1 p)).trans ?_
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, exp_apply]
  rfl

/-- The host's row maximum (a reduce from -inf, then one more maximum against a splat of -inf), laid out as a column
    and repeated along the rows, reads the row's maximum. -/
theorem rowMax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) (p : Fin A) (q : Fin N) :
    broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))) (ix2 p q)
      = rowMax y p := by
  rw [col_host hd hbc _ p q, maximumf_apply]
  show max (Ideal.ofBits .f32 0xFF800000#32) _ = _
  rw [Host.reduce_eq_fold_single FloatOps.maximumf y _ h' hr hu (ix1 p)]
  have hbot : Ideal.ofBits .f32 0xFF800000#32 = (⊥ : EReal) := by simp [Ideal.ofBits, Ideal.ieee]
  show max (Ideal.ofBits .f32 0xFF800000#32)
      ((Finset.univ : Finset (Fin N)).fold max (Ideal.ofBits .f32 0xFF800000#32) (y ∘ hr.lift (ix1 p))) = rowMax y p
  rw [hbot, max_eq_right bot_le, ← hbot]
  unfold rowMax
  refine congrArg (fun f => (Finset.univ : Finset (Fin N)).fold max (Ideal.ofBits .f32 0xFF800000#32) f) (funext fun k => ?_)
  exact congrArg y (funext fun c => Fin.ext (by
    match c with
    | ⟨0, _⟩ => rfl
    | ⟨1, _⟩ => rfl))

/-- The host's log-softmax of all rows is the log-softmax of each row. -/
theorem logSoftmax_host {A N : Nat} (y : FVec Ideal ⟨2, ![A, N]⟩ .f32)
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = logSoftmax y := by
  have hsh : subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu))))
      = fun j => y j - rowMax y (j 0 : Fin A) := by
    funext j
    obtain ⟨p, q, rfl⟩ : ∃ (p : Fin A) (q : Fin N), j = ix2 p q := ⟨j 0, j 1, eq_ix2 j⟩
    rw [subf_apply, rowMax_host y h' hr hu hS hd hbc p q]
    rfl
  rw [hsh]
  funext j
  obtain ⟨p, q, rfl⟩ : ∃ (p : Fin A) (q : Fin N), j = ix2 p q := ⟨j 0, j 1, eq_ix2 j⟩
  rw [subf_apply, col2_host hbc _ p q, hostLog_apply, col1_host hd _ p 0]
  show (y (ix2 p q) - rowMax y p) - Ideal.log _ = (y (ix2 p q) - rowMax y p) - Ideal.log _
  refine congrArg (fun s => (y (ix2 p q) - rowMax y p) - Ideal.log s) ?_
  show Ideal.hostReduceAdd h' (Host.exp fun j => y j - rowMax y (j 0 : Fin A)) (Ideal.ofBits .f32 0x00000000#32) (ix1 p) = _
  rw [Ideal.hostReduceAdd_single h' hr, Ideal.ofBits_zero_f32, zero_add]
  show ∑ k : Fin N, _ = ∑ k : Fin N, _
  refine Finset.sum_congr rfl fun k _ => ?_
  have el : hr.lift (ix1 p) k = ix2 p k := funext fun c => Fin.ext (by
    match c with
    | ⟨0, _⟩ => rfl
    | ⟨1, _⟩ => rfl)
  rw [el, hostExp_apply]
  rfl

/-! ## The layers -/

/-- A hidden layer: relu of the dense map of each row. -/
def reluDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := relu (dense A K N x w b)

/-- The last layer: the log-softmax of the dense map of each row. -/
def lsmDense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal := logSoftmax (dense A K N x w b)

/-- Entry (p, q) of a hidden layer depends on row p of its input only. -/
theorem reluDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    reluDense A K N x w b (ix2 p q) = reluDense A' K N x' w b (ix2 r q) :=
  relu_congr _ _ _ _ (dense_row x x' w b p r q h)

/-- Entry (p, q) of the last layer depends on row p of its input only. -/
theorem lsmDense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    lsmDense A K N x w b (ix2 p q) = lsmDense A' K N x' w b (ix2 r q) :=
  logSoftmax_row _ _ p r q fun k => dense_row x x' w b p r k h

/-- The host's hidden layer (dot_general, the bias broadcast twice, the maximum with a broadcast zero) is relu of the
    dense map of each row. -/
theorem reluDense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1])
    (hS : (⟨0, ![]⟩ : Shape).BroadcastsInDim ⟨2, ![A, N]⟩ (![] : Fin 0 → Fin 2)) :
    maximumf (addf (Host.dotGeneral (DotDims.plain A K N) none x w)
        (broadcastInDim ⟨2, ![A, N]⟩ ![0, 1] hbc (broadcastInDim ⟨2, ![1, N]⟩ ![1] hd b)))
      (broadcastInDim ⟨2, ![A, N]⟩ ![] hS (constant (F := Ideal) ⟨0, ![]⟩ .f32 0x00000000#32)) = reluDense A K N x w b := by
  rw [dense_host x w b hd hbc]
  exact relu_host _ hS

/-- The host's last layer: the log-softmax spelt over the dense map y is the log-softmax of the dense map of each row. -/
theorem lsmDense_host {A K N : Nat} (x : FVec Ideal ⟨2, ![A, K]⟩ .f32) (w : FVec Ideal ⟨2, ![K, N]⟩ .f32)
    (b : FVec Ideal ⟨1, ![N]⟩ .f32) (y : FVec Ideal ⟨2, ![A, N]⟩ .f32)
    (hd1 : (⟨1, ![N]⟩ : Shape).BroadcastsInDim ⟨2, ![1, N]⟩ ![1])
    (hbc1 : (⟨2, ![1, N]⟩ : Shape).BroadcastsInDim ⟨2, ![A, N]⟩ ![0, 1])
    (hy : y = addf (Host.dotGeneral (DotDims.plain A K N) none x w)
      (broadcastInDim ⟨2, ![A, N]⟩ ![0, 1] hbc1 (broadcastInDim ⟨2, ![1, N]⟩ ![1] hd1 b)))
    (h' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hS : (⟨0, ![]⟩ : Shape).BroadcastsInDim ⟨1, ![A]⟩ (![] : Fin 0 → Fin 1))
    (hd : (⟨1, ![A]⟩ : Shape).BroadcastsInDim ⟨2, ![A, 1]⟩ ![0])
    (hbc : (⟨2, ![A, 1]⟩ : Shape).BroadcastsInDim ⟨2, ![A, N]⟩ ![0, 1]) :
    subf (subf y (broadcastInDim ⟨2, ![A, N]⟩ ![0, 1] hbc (broadcastInDim ⟨2, ![A, 1]⟩ ![0] hd
        (maximumf (broadcastInDim ⟨1, ![A]⟩ ![] hS (constant (F := Ideal) ⟨0, ![]⟩ .f32 0xFF800000#32))
          (Host.reduce FloatOps.maximumf y (constant (F := Ideal) ⟨0, ![]⟩ .f32 0xFF800000#32) h' hu)))))
      (broadcastInDim ⟨2, ![A, N]⟩ ![0, 1] hbc (Host.log (broadcastInDim ⟨2, ![A, 1]⟩ ![0] hd
        (Host.reduceAdd (Host.exp (subf y (broadcastInDim ⟨2, ![A, N]⟩ ![0, 1] hbc (broadcastInDim ⟨2, ![A, 1]⟩ ![0] hd
          (maximumf (broadcastInDim ⟨1, ![A]⟩ ![] hS (constant (F := Ideal) ⟨0, ![]⟩ .f32 0xFF800000#32))
            (Host.reduce FloatOps.maximumf y (constant (F := Ideal) ⟨0, ![]⟩ .f32 0xFF800000#32) h' hu))))))
          (constant (F := Ideal) ⟨0, ![]⟩ .f32 0x00000000#32) h' hu))))
      = lsmDense A K N x w b := by
  rw [logSoftmax_host y h' hr hu hS hd hbc, hy, dense_host x w b hd1 hbc1]
  rfl

/-- The kernel's hidden layer on a tile of rows. -/
theorem reluDense_kernel {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    maximumf (addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
      (broadcast ⟨2, ![A, N]⟩ (Scalar.ofBits (F := Ideal) .f32 0x00000000#32)) = reluDense A K N x w (rowVec b1) := by
  rw [dense_kernel_row x w b1 hlt hx h1 hb]
  exact relu_kernel _

/-- The kernel's last layer on a tile of rows: the log-softmax spelt over its dense map y. -/
theorem lsmDense_kernel {A K N : Nat} (x : FVec Ideal ⟨2, ![A, K]⟩ .f32) (w : FVec Ideal ⟨2, ![K, N]⟩ .f32)
    (b1 : FVec Ideal ⟨2, ![1, N]⟩ .f32) (y : FVec Ideal ⟨2, ![A, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩)
    (hy : y = addf (matmul (DotDims.plain A K N) none (truncf .bf16 (shapeCast ⟨2, ![A, K]⟩ x hx) hlt) (truncf .bf16 w hlt)
        (constant ⟨2, ![A, N]⟩ .f32 0x00000000#32))
      (broadcastTo ⟨2, ![A, N]⟩ (shapeCast ⟨2, ![1, N]⟩ b1 h1) hb))
    (hr : (⟨2, ![A, N]⟩ : Shape).Reduces [1] ⟨1, ![A]⟩) (hφ : FKind.Formats .f32)
    (hm : (0xFF800000#32 : BitVec 32) = FKind.maximumf.neutral .f32 hφ)
    (ha : (0x00000000#32 : BitVec 32) = FKind.add.neutral .f32 hφ)
    (hc : (⟨1, ![A]⟩ : Shape).ShapeCasts ⟨2, ![A, 1]⟩) (hbc : (⟨2, ![A, 1]⟩ : Shape).Broadcasts ⟨2, ![A, N]⟩) :
    subf (subf y (broadcastTo ⟨2, ![A, N]⟩ (shapeCast ⟨2, ![A, 1]⟩ (multiReduction .maximumf [1] ⟨1, ![A]⟩ y 0xFF800000#32 hr hφ hm) hc) hbc))
      (broadcastTo ⟨2, ![A, N]⟩ (log (shapeCast ⟨2, ![A, 1]⟩ (multiReduction .add [1] ⟨1, ![A]⟩
        (exp (subf y (broadcastTo ⟨2, ![A, N]⟩ (shapeCast ⟨2, ![A, 1]⟩ (multiReduction .maximumf [1] ⟨1, ![A]⟩ y 0xFF800000#32 hr hφ hm) hc) hbc)))
        0x00000000#32 hr hφ ha) hc)) hbc)
      = lsmDense A K N x w (rowVec b1) := by
  rw [logSoftmax_kernel y hr hφ hm ha hc hbc, hy, dense_kernel_row x w b1 hlt hx h1 hb]
  rfl

end Cert.LibLayers

end
-- ==== Proof.MlpTile.lean ====
/-
  The two-layer perceptron of a graph-isomorphism layer, row by row, and the kernel's body on a tile of rows.

  After the neighbours' rows have been summed into each node's row, the layer sends the [A, 128] matrix h of rows to
      out(r, c) = sum_k max( sum_j h(r, j) * W1(j, k) + b1(k), 0 ) * W2(k, c) + b2(c):
  a dense map, relu, a second dense map.  Entry (r, c) of the result depends on row r of h only, so the perceptron of
  a tile of rows is the tile of the perceptron of all rows (mlp_row).

  The kernel's body on a tile of 5000 rows is this function of the tile: narrowing an operand to bf16 is the identity
  at the ideal values, a matrix product accumulated into a zero splat is the plain sum over the shared axis, and
  each bias arrives as one [1, 128] row repeated down the tile's rows.
-/
import proofs.«110534_j65240553226749_2_alg».proof.Proof.Gen.KernelIdeal.Skeleton
import proofs.«110534_j65240553226749_2_alg».proof.Proof.LibLayers

noncomputable section

open scoped BigOperators

namespace Cert.Gin

open Idealize.ShloMosaic Idealize.ShloMosaic.ValueIdx Cert.LibDense Cert.LibLayers

/-- The perceptron on rows: the second dense map of relu of the first. -/
def mlp (A : Nat) (h : (⟨2, ![A, 128]⟩ : Shape).Idx → EReal) (w1 : (⟨2, ![128, 128]⟩ : Shape).Idx → EReal)
    (b1 : (⟨1, ![128]⟩ : Shape).Idx → EReal) (w2 : (⟨2, ![128, 128]⟩ : Shape).Idx → EReal)
    (b2 : (⟨1, ![128]⟩ : Shape).Idx → EReal) : (⟨2, ![A, 128]⟩ : Shape).Idx → EReal :=
  dense A 128 128 (reluDense A 128 128 h w1 b1) w2 b2

/-- Entry (p, q) of the perceptron depends on row p of its input only. -/
theorem mlp_row {A A' : Nat} (h : (⟨2, ![A, 128]⟩ : Shape).Idx → EReal) (h' : (⟨2, ![A', 128]⟩ : Shape).Idx → EReal)
    (w1 : (⟨2, ![128, 128]⟩ : Shape).Idx → EReal) (b1 : (⟨1, ![128]⟩ : Shape).Idx → EReal)
    (w2 : (⟨2, ![128, 128]⟩ : Shape).Idx → EReal) (b2 : (⟨1, ![128]⟩ : Shape).Idx → EReal)
    (p : Fin A) (r : Fin A') (q : Fin 128) (hrow : ∀ k : Fin 128, h (ix2 p k) = h' (ix2 r k)) :
    mlp A h w1 b1 w2 b2 (ix2 p q) = mlp A' h' w1 b1 w2 b2 (ix2 r q) :=
  dense_row _ _ w2 b2 p r q fun k => reluDense_row h h' w1 b1 p r k hrow

/-- The kernel's dense layer whose left operand is narrowed to bf16 as it stands (no cast in front of it), the bias
    one row repeated down the rows. -/
theorem dense_kernel_row_plain {A K N : Nat} (x : FVec Ideal ⟨2, ![A, K]⟩ .f32) (w : FVec Ideal ⟨2, ![K, N]⟩ .f32)
    (b1 : FVec Ideal ⟨2, ![1, N]⟩ .f32) (hlt : FTy.bits .bf16 < FTy.bits .f32)
    (hx : (⟨2, ![A, K]⟩ : Shape).ShapeCasts ⟨2, ![A, K]⟩)
    (h1 : (⟨2, ![1, N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt)
        (constant ⟨2, ![A, N]⟩ .f32 0x00000000#32))
      (broadcastTo ⟨2, ![A, N]⟩ (shapeCast ⟨2, ![1, N]⟩ b1 h1) hb) = dense A K N x w (rowVec b1) := by
  have h := dense_kernel_row x w b1 hlt hx h1 hb
  rwa [shapeCast_self x hx] at h

open Cert.KernelIdeal Cert.KernelIdeal.Gen in
/-- The kernel's matrix product has the plain dimension numbers: rows by the shared axis times the shared axis by
    columns. -/
theorem dot_eq_plain : dot_S5000x128_S128x128_S5000x128_1_0_0_1_n_n = DotDims.plain 5000 128 128 := rfl

open Cert.KernelIdeal Cert.KernelIdeal.Gen in
/-- The kernel's body on a tile: what it stores is the perceptron of the tile's rows, with the weights and the
    two bias rows as the body finds them. -/
theorem tile_eq (x0 : Vec Ideal S5000x128 .f32) (x1 : Vec Ideal S128x128 .f32) (x2 : Vec Ideal S1x128 .f32)
    (x3 : Vec Ideal S128x128 .f32) (x4 : Vec Ideal S1x128 .f32) :
    k0_pay1 x0 x1 x2 x3 x4 = mlp 5000 x0 x1 (rowVec x2) x3 (rowVec x4) := by
  unfold k0_pay1 mlp
  dsimp only
  rw [dot_eq_plain]
  rw [reluDense_kernel (A := 5000) (K := 128) (N := 128) x0 x1 x2 bitsLt_bf16_f32 shapeCasts_S5000x128_S5000x128
    shapeCasts_S1x128_S1x128 broadcasts_S1x128_S5000x128]
  exact dense_kernel_row_plain (A := 5000) (K := 128) (N := 128) (reluDense 5000 128 128 x0 x1 (rowVec x2)) x3 x4
    bitsLt_bf16_f32 shapeCasts_S5000x128_S5000x128 shapeCasts_S1x128_S1x128 broadcasts_S1x128_S5000x128

end Cert.Gin

end
-- ==== Proof.HostStage.lean ====
/-
  What the kernel's program hands its one pallas_call: the arrays as the host operations in front of the call leave
  them, as functions of the program's arguments.

  The call's row operand is the aggregated feature matrix: the features times one, with the message rows
  feature[src(e)] scatter-added into row dst(e) for every edge e, both index vectors wrapped around the end where
  negative.  The two bias operands are the bias vectors recast as one row each; the two weight matrices are the
  arguments themselves.
-/
import proofs.«110534_j65240553226749_2_alg».proof.Proof.Gen.KernelIdeal.Frame
import Idealize.ShloMosaic.Lib.StableHlo.Run
import Idealize.ShloMosaic.PureOps.Ideal

noncomputable section

namespace Cert.KernelIdeal.HostStage

open Cert.KernelIdeal Cert.KernelIdeal.Gen Idealize.ShloMosaic Idealize.ShloMosaic.TcCoe Idealize.SL.Sem
open Idealize.ShloMosaic.StableHlo

/-- An index vector with its negative entries wrapped around the end of an axis of 100000 rows. -/
def wrap (x : IVec S1600000 32) : IVec S1600000 32 :=
  select (cmpi .slt x (broadcastInDim S1600000 ![] bcast_S_S1600000 (constantI S_ 32 0#32)))
    (addi x (broadcastInDim S1600000 ![] bcast_S_S1600000 (constantI S_ 32 100000#32))) x

/-- The message rows: row e is the feature row at the wrapped source index of edge e. -/
def messages (x0 : FVec Ideal S100000x128 .f32) (x1 : IVec S1600000 32) : FVec Ideal S1600000x128 .f32 :=
  Host.gather gather_S100000x128_S1600000x1_S1600000x128_1_0_n_n_0_1_1128 x0
    (broadcastInDim S1600000x1 ![0] bcast_S1600000_S1600000x1_0 (wrap x1))

/-- The features times one: the kernel's program scatters into this, the reference adds it afterwards. -/
def selfTerm (x0 : FVec Ideal S100000x128 .f32) : FVec Ideal S100000x128 .f32 :=
  mulf (broadcastInDim S100000x128 ![] bcast_S_S100000x128 (constant (F := Ideal) S_ .f32 0x3F800000#32)) x0

/-- The aggregated features as the kernel's program computes them: the message rows scatter-added into the self
    term at the wrapped destination indices. -/
def aggregated (x0 : FVec Ideal S100000x128 .f32) (x1 x2 : IVec S1600000 32) : FVec Ideal S100000x128 .f32 :=
  Host.scatterAdd scatter_S100000x128_S1600000x1_S1600000x128_1_0_0_1 (selfTerm x0)
    (broadcastInDim S1600000x1 ![0] bcast_S1600000_S1600000x1_0 (wrap x2)) (messages x0 x1)

variable (m : (ℓ : Loc nD τ sig) → Buf (Elt Ideal) ℓ)

set_option maxHeartbeats 4000000 in
/-- The call's row operand is the aggregated feature matrix of the arguments. -/
theorem V_rows (c : Dev nD) : (V m c main_v15 : S100000x128.Idx → EReal)
    = aggregated (m ((c : Thread nD τ).loc main_arg0)) (m ((c : Thread nD τ).loc main_arg1)) (m ((c : Thread nD τ).loc main_arg2)) := by
  dsimp only [Gen.V, Gen.hostOps0]
  after_results_simp
  rfl

/-- The call's first bias operand is the first bias vector recast as one row. -/
theorem V_bias1 (c : Dev nD) : (V m c main_v16 : S1x128.Idx → EReal)
    = shapeCast S1x128 (m ((c : Thread nD τ).loc main_arg4)) shapeCasts_S128_S1x128 := by
  dsimp only [Gen.V, Gen.hostOps0]
  after_results
  rfl

/-- The call's second bias operand is the second bias vector recast as one row. -/
theorem V_bias2 (c : Dev nD) : (V m c main_v17 : S1x128.Idx → EReal)
    = shapeCast S1x128 (m ((c : Thread nD τ).loc main_arg6)) shapeCasts_S128_S1x128 := by
  dsimp only [Gen.V, Gen.hostOps0]
  after_results
  rfl

end Cert.KernelIdeal.HostStage

end
-- ==== Proof.Tiles.lean ====
/-
  From the tiles the kernel writes to the whole result array.

  The grid has 20 points; point t reads rows 5000 t .. 5000 t + 4999 of the aggregated feature matrix, the two
  weight matrices and the two bias rows whole, and writes back rows 5000 t .. 5000 t + 4999 of the result.  What it
  writes is the perceptron of its tile of rows, and an entry of the perceptron depends on its own row only, so the
  tile it writes is the tile of the perceptron of ALL rows.  The 20 tiles cover the 100000 rows (row r lies in tile
  r / 5000), so after the run the result array is the perceptron of all rows of the arrays the call was handed.
-/
import proofs.«110534_j65240553226749_2_alg».proof.Proof.Gen.KernelIdeal.Value
import proofs.«110534_j65240553226749_2_alg».proof.Proof.MlpTile
import proofs.«110534_j65240553226749_2_alg».proof.Proof.HostStage
import Idealize.ShloMosaic.Lib.Pipeline.Value
import Idealize.ShloMosaic.Lib.Tactic

noncomputable section

namespace Cert.KernelIdeal.Tiles

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.LibLayers Cert.Gin

variable (m : (ℓ : Loc nD τ sig) → Buf (Elt Ideal) ℓ) (ρ : Dev nD → PrngReg)

theorem hz : (![0, 0] : Fin 2 → Nat) = fun _ => 0 := funext fun a => by fin_cases a <;> rfl

/-- Where each window's block sits at point t: the row operand and the result at block row t, everything else at
    block (0, 0).  Decided over the 20 points. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Entry x of the row operand's block at point t is the aggregated feature matrix at row 5000 t + x0, column x1. -/
theorem rows_block (c : Dev nD) (t : Fin cfg0.N) (x : S5000x128.Idx) (k : S100000x128.Idx)
    (hk0 : (k 0).val = t.val * 5000 + (x 0).val) (hk1 : (k 1).val = (x 1).val) :
    (iblk m c 0 t : Vec Ideal S5000x128 .f32) x = (V m c main_v15 : S100000x128.Idx → EReal) k := by
  obtain ⟨e0, e1, -⟩ := idx_facts t
  unfold iblk
  rw [View.read_apply]
  show V m c main_v15 _ = V m c main_v15 k
  refine congrArg (V m c main_v15) ?_
  funext a
  apply Fin.ext
  match a with
  | ⟨0, _⟩ => show win0_0.index t 0 * 5000 + 1 * (x 0).val = (k 0).val; rw [e0, hk0]; omega
  | ⟨1, _⟩ => show win0_0.index t 1 * 128 + 1 * (x 1).val = (k 1).val; rw [e1, hk1]; omega

/-- The first weight matrix's block at any point is the whole matrix. -/
theorem w1_block (c : Dev nD) (t : Fin cfg0.N) :
    (iblk m c 1 t : Vec Ideal S128x128 .f32) = (V m c main_arg3 : S128x128.Idx → EReal) := by
  obtain ⟨-, -, e0, e1, -⟩ := idx_facts t
  funext x
  unfold iblk
  rw [View.read_apply]
  show V m c main_arg3 _ = V m c main_arg3 x
  refine congrArg (V m c main_arg3) ?_
  funext a
  apply Fin.ext
  match a with
  | ⟨0, _⟩ => show win0_1.index t 0 * 128 + 1 * (x 0).val = (x 0).val; rw [e0]; omega
  | ⟨1, _⟩ => show win0_1.index t 1 * 128 + 1 * (x 1).val = (x 1).val; rw [e1]; omega

/-- The first bias row's block at any point is the whole row. -/
theorem b1_block (c : Dev nD) (t : Fin cfg0.N) :
    (iblk m c 2 t : Vec Ideal S1x128 .f32) = (V m c main_v16 : S1x128.Idx → EReal) := by
  obtain ⟨-, -, -, -, e0, e1, -⟩ := idx_facts t
  funext x
  unfold iblk
  rw [View.read_apply]
  show V m c main_v16 _ = V m c main_v16 x
  refine congrArg (V m c main_v16) ?_
  funext a
  apply Fin.ext
  match a with
  | ⟨0, _⟩ => show win0_2.index t 0 * 1 + 1 * (x 0).val = (x 0).val; rw [e0]; omega
  | ⟨1, _⟩ => show win0_2.index t 1 * 128 + 1 * (x 1).val = (x 1).val; rw [e1]; omega

/-- The second weight matrix's block at any point is the whole matrix. -/
theorem w2_block (c : Dev nD) (t : Fin cfg0.N) :
    (iblk m c 3 t : Vec Ideal S128x128 .f32) = (V m c main_arg5 : S128x128.Idx → EReal) := by
  obtain ⟨-, -, -, -, -, -, e0, e1, -⟩ := idx_facts t
  funext x
  unfold iblk
  rw [View.read_apply]
  show V m c main_arg5 _ = V m c main_arg5 x
  refine congrArg (V m c main_arg5) ?_
  funext a
  apply Fin.ext
  match a with
  | ⟨0, _⟩ => show win0_3.index t 0 * 128 + 1 * (x 0).val = (x 0).val; rw [e0]; omega
  | ⟨1, _⟩ => show win0_3.index t 1 * 128 + 1 * (x 1).val = (x 1).val; rw [e1]; omega

/-- The second bias row's block at any point is the whole row. -/
theorem b2_block (c : Dev nD) (t : Fin cfg0.N) :
    (iblk m c 4 t : Vec Ideal S1x128 .f32) = (V m c main_v17 : S1x128.Idx → EReal) := by
  obtain ⟨-, -, -, -, -, -, -, -, e0, e1, -⟩ := idx_facts t
  funext x
  unfold iblk
  rw [View.read_apply]
  show V m c main_v17 _ = V m c main_v17 x
  refine congrArg (V m c main_v17) ?_
  funext a
  apply Fin.ext
  match a with
  | ⟨0, _⟩ => show win0_4.index t 0 * 1 + 1 * (x 0).val = (x 0).val; rw [e0]; omega
  | ⟨1, _⟩ => show win0_4.index t 1 * 128 + 1 * (x 1).val = (x 1).val; rw [e1]; omega

/-- The perceptron of all 100000 rows of the arrays the call was handed. -/
abbrev G (c : Dev nD) : S100000x128.Idx → EReal :=
  mlp 100000 (V m c main_v15) (V m c main_arg3) (rowVec (V m c main_v16)) (V m c main_arg5) (rowVec (V m c main_v17))

/-- Entry j of the perceptron of tile t is entry (5000 t + j0, j1) of the perceptron of all rows. -/
theorem tile_entry (c : Dev nD) (t : Fin cfg0.N) (j : S5000x128.Idx) (i : S100000x128.Idx)
    (h0 : (i 0).val = t.val * 5000 + (j 0).val) (h1 : (i 1).val = (j 1).val) :
    mlp 5000 (iblk m c 0 t) (V m c main_arg3) (rowVec (V m c main_v16)) (V m c main_arg5) (rowVec (V m c main_v17)) j
      = G m c i := by
  obtain ⟨p, q, rfl⟩ : ∃ (p : Fin 5000) (q : Fin 128), j = ix2 p q := ⟨j 0, j 1, eq_ix2 j⟩
  obtain ⟨r, q', rfl⟩ : ∃ (r : Fin 100000) (q' : Fin 128), i = ix2 r q' := ⟨i 0, i 1, eq_ix2 i⟩
  have hq : q' = q := Fin.ext h1
  subst hq
  exact mlp_row _ _ _ _ _ _ p r q' fun k => rows_block m c t (ix2 p k) (ix2 r k) h0 rfl

/-- What point t writes back is tile t of the perceptron of all rows. -/
theorem flushed_eq (c : Dev nD) (t : Fin cfg0.N) :
    (dats m 0 c).flushed 5 t = ((cfg0.win 5).blk t).view.read (Elt Ideal) (G m c) := by
  rw [flushed5]
  unfold out0_5
  rw [View.canon_unit_zero hz]
  simp only [View.ld_unit_zero (S := S5000x128) hz, View.ld_unit_zero (S := S128x128) hz, View.ld_unit_zero (S := S1x128) hz]
  rw [tile_eq (iblk m c 0 t) (iblk m c 1 t) (iblk m c 2 t) (iblk m c 3 t) (iblk m c 4 t)]
  rw [w1_block m c t, b1_block m c t, w2_block m c t, b2_block m c t]
  obtain ⟨-, -, -, -, -, -, -, -, -, -, e0, e1⟩ := idx_facts t
  funext j
  show mlp 5000 (iblk m c 0 t) (V m c main_arg3) (rowVec (V m c main_v16)) (V m c main_arg5) (rowVec (V m c main_v17)) j
    = G m c (((cfg0.win 5).blk t).view.emb j)
  refine tile_entry m c t j _ ?_ ?_
  · show win0_5.index t (0 : Fin 2) * 5000 + 1 * (j 0).val = t.val * 5000 + (j 0).val
    rw [e0]; omega
  · show win0_5.index t (1 : Fin 2) * 128 + 1 * (j 1).val = (j 1).val
    rw [e1]; omega

/-- An index of the result array is in point t's block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v18).slice (win0_5.rect t)).set ↔ _
  rw [View.set_slice_whole, Rect.mem_set_unit]
  exact Iff.rfl

/-- Every index of the result array is in some point's block: row r is in the block of point r / 5000. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, -, -, -, -, -, -, e0, e1⟩ := idx_facts t
  refine ⟨t, flush0_5 t, ?_⟩
  rw [mem_blk]
  intro a
  match a with
  | ⟨0, _⟩ =>
    show win0_5.index t (0 : Fin 2) * 5000 ≤ (i 0).val ∧ (i 0).val < win0_5.index t (0 : Fin 2) * 5000 + 5000
    rw [e0, ht]; omega
  | ⟨1, _⟩ =>
    show win0_5.index t (1 : Fin 2) * 128 ≤ (i 1).val ∧ (i 1).val < win0_5.index t (1 : Fin 2) * 128 + 128
    rw [e1]; omega

/-- After the run the result array is the perceptron of all rows of the arrays the call was handed. -/
theorem final (c : Dev nD) : (dats m 0 c).arrAt 5 cfg0.N = G m c :=
  (dats m 0 c).arrAt_eq_of_cover 5 (G m c) (fun t _ => flushed_eq m c t) cover

/-- The arrays the call was handed, as functions of the program's arguments: the result is the perceptron of the
    aggregated feature matrix, with the weights and biases the arguments themselves. -/
theorem G_eq (c : Dev nD) : G m c = mlp 100000
    (HostStage.aggregated (m ((c : Thread nD τ).loc main_arg0)) (m ((c : Thread nD τ).loc main_arg1)) (m ((c : Thread nD τ).loc main_arg2)))
    (m ((c : Thread nD τ).loc main_arg3)) (m ((c : Thread nD τ).loc main_arg4))
    (m ((c : Thread nD τ).loc main_arg5)) (m ((c : Thread nD τ).loc main_arg6)) := by
  show mlp 100000 (V m c main_v15) (V m c main_arg3) (rowVec (V m c main_v16)) (V m c main_arg5) (rowVec (V m c main_v17)) = _
  rw [HostStage.V_rows m c, HostStage.V_bias1 m c, HostStage.V_bias2 m c, V_main_arg3 m c, V_main_arg5 m c,
    rowVec_shapeCast, rowVec_shapeCast]

/-- The kernel's run, read: the result array ends at the perceptron of the aggregated features, the arguments
    unchanged. -/
theorem run : θ_run defs (onTc (τ := τ) (main (F := Ideal))) ⟨m, fun _ => 0, ρ⟩ fun r => ∀ c : Dev nD,
      r.2.mem ((c : Thread nD τ).loc main_v18) = mlp 100000
        (HostStage.aggregated (m ((c : Thread nD τ).loc main_arg0)) (m ((c : Thread nD τ).loc main_arg1)) (m ((c : Thread nD τ).loc main_arg2)))
        (m ((c : Thread nD τ).loc main_arg3)) (m ((c : Thread nD τ).loc main_arg4))
        (m ((c : Thread nD τ).loc main_arg5)) (m ((c : Thread nD τ).loc main_arg6))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans ((final m c).trans (G_eq m c)), (h c).2⟩)
    (Value.run_blocks m ρ)

end Cert.KernelIdeal.Tiles

end
-- ==== Proof.LibScatterSplit.lean ====
/-
  Two facts about a host scatter-add at the ideal values, generic in every shape and in the dimension numbers.

  At the ideal values a float scatter-add reads, at an element i of its operand, the operand's element plus the sum
  of the update elements that land on i; an update that lands outside the operand adds nothing.  So scattering into
  an initial array x is the same as adding x to a scatter into zeros:  x(i) + S(i) = x(i) + (0 + S(i)).  Only
  0 + s = s is used, which holds for every extended real, the infinities included.

  An index that a program wraps around the end when it is negative, "i if i >= 0 else i + n", is left alone when it
  is nonnegative as a signed word: the comparison i < 0 is then false and the selection keeps i.
-/
import Idealize.ShloMosaic.PureOps.Ideal
import Idealize.ShloMosaic.PureOps.Ideal.Laws
import Idealize.ShloMosaic.Lib.Affine

noncomputable section

open scoped BigOperators

namespace Cert.LibScatterSplit

open Idealize.ShloMosaic

/-- A scatter-add of updates into an initial array is that array plus the scatter-add of the same updates, at the
    same indices, into an array of zeros. -/
theorem scatterAdd_eq_add_scatterAdd_zero {s si su : Shape} {φ : FTy} {w : Nat} (d : ScatterDims s si su)
    (x z : FVec Ideal s φ) (idx : IVec si w) (upd : FVec Ideal su φ) (hz : ∀ i, z i = (0 : EReal)) :
    Host.scatterAdd d x idx upd = addf x (Host.scatterAdd d z idx upd) := by
  funext i
  show Ideal.hostScatterAdd d x idx upd i = x i + Ideal.hostScatterAdd d z idx upd i
  simp only [Ideal.hostScatterAdd]
  rw [hz i, zero_add]

/-- The host's zero splat, a scalar zero constant broadcast to any shape, is zero at every element. -/
theorem zero_splat_apply {t : Shape} (h : (⟨0, ![]⟩ : Shape).BroadcastsInDim t (![] : Fin 0 → Fin t.rank)) (i : t.Idx) :
    broadcastInDim t ![] h (constant (F := Ideal) ⟨0, ![]⟩ .f32 0x00000000#32) i = (0 : EReal) :=
  Ideal.ofBits_zero_f32

/-- An index wrapped around the end when negative (select (x < 0) (x + n) x, the comparison signed) is the index
    itself wherever the index is nonnegative as a signed word. -/
theorem wrap_of_nonneg {s : Shape} (x z n : IVec s 32) (hz : ∀ e, z e = 0#32) (h : ∀ e, 0 ≤ (x e).toInt) :
    select (cmpi .slt x z) (addi x n) x = x := by
  funext e
  show Scalar.select (IntOp.cmpi .slt (x e) (z e)) _ (x e) = x e
  unfold Scalar.select
  rw [if_neg]
  intro hc
  rw [hz e] at hc
  have hlt : (x e).toInt < (0#32 : BitVec 32).toInt := IntOp.cmpi_slt.1 hc
  have h0 : (0#32 : BitVec 32).toInt = 0 := by decide
  rw [h0] at hlt
  exact absurd (h e) (not_le.2 hlt)

end Cert.LibScatterSplit

end
-- ==== Proof.Reference.lean ====
/-
  The reference's result is the same perceptron of the same aggregated features.

  The reference sums the message rows into an array of zeros (a segment sum over the destination indices as they
  are) and adds the features times one afterwards; the kernel's program scatter-adds the same message rows into the
  features times one, at the destination indices wrapped around the end where negative.  Where every destination
  index is nonnegative the wrap does nothing, and then the two aggregated matrices are one:
      x(i) + S(i)  =  x(i) + (0 + S(i)),
  S(i) the sum of the message rows that land on i (an index past the last row lands nowhere in either program).
  The reference's two dense layers (a dot_general each, the bias broadcast to one row and then down the rows) and its
  relu are the perceptron's, entry by entry.

  The precondition says the destination indices are nonnegative: its last conjunct is the "and" over all edges of
  dst(e) >= 0, signed.
-/
import proofs.«110534_j65240553226749_2_alg».proof.Defs
import proofs.«110534_j65240553226749_2_alg».proof.Proof.Gen.ReferenceIdeal.Run
import proofs.«110534_j65240553226749_2_alg».proof.Proof.Gen.Pre_finite_inputs
import proofs.«110534_j65240553226749_2_alg».proof.Proof.MlpTile
import proofs.«110534_j65240553226749_2_alg».proof.Proof.HostStage
import proofs.«110534_j65240553226749_2_alg».proof.Proof.LibScatterSplit
import Idealize.ShloMosaic.Lib.ReduceAll
import Idealize.ShloMosaic.Lib.ValueIdx

noncomputable section

namespace Cert.ReferenceIdeal.Bridge

open Idealize.ShloMosaic Idealize.ShloMosaic.TcCoe Idealize.SL.Sem
open Cert.LibDense Cert.LibLayers Cert.LibScatterSplit Cert.Gin
open Cert.ReferenceIdeal Cert.ReferenceIdeal.Gen

/-- The reference's matrix products have the plain dimension numbers. -/
theorem dot_eq_plain : dot_S100000x128_S128x128_S100000x128_1_0_0_1_n_n = DotDims.plain 100000 128 128 := rfl

/-- The reference's aggregated features — the features times one plus the segment sum of the message rows over the
    destination indices as they are — are the kernel program's wherever every destination index is nonnegative. -/
theorem aggregated_eq (x0 : FVec Ideal S100000x128 .f32) (x1 x2 : IVec S1600000 32) (h2 : ∀ e, 0 ≤ (x2 e).toInt) :
    addf (mulf (broadcastInDim S100000x128 ![] bcast_S_S100000x128 (constant (F := Ideal) S_ .f32 0x3F800000#32)) x0)
      (Host.scatterAdd scatter_S100000x128_S1600000x1_S1600000x128_1_0_0_1
        (broadcastInDim S100000x128 ![] bcast_S_S100000x128 (constant (F := Ideal) S_ .f32 0x00000000#32))
        (broadcastInDim S1600000x1 ![0] bcast_S1600000_S1600000x1_0 x2)
        (Host.gather gather_S100000x128_S1600000x1_S1600000x128_1_0_n_n_0_1_1128 x0
          (broadcastInDim S1600000x1 ![0] bcast_S1600000_S1600000x1_0
            (select (cmpi .slt x1 (broadcastInDim S1600000 ![] bcast_S_S1600000 (constantI S_ 32 0#32)))
              (addi x1 (broadcastInDim S1600000 ![] bcast_S_S1600000 (constantI S_ 32 100000#32))) x1))))
      = Cert.KernelIdeal.HostStage.aggregated x0 x1 x2 := by
  unfold Cert.KernelIdeal.HostStage.aggregated
  rw [show Cert.KernelIdeal.HostStage.wrap x2 = x2 from wrap_of_nonneg x2 _ _ (fun _ => rfl) h2]
  rw [scatterAdd_eq_add_scatterAdd_zero Cert.KernelIdeal.scatter_S100000x128_S1600000x1_S1600000x128_1_0_0_1
    (Cert.KernelIdeal.HostStage.selfTerm x0)
    (broadcastInDim S100000x128 ![] bcast_S_S100000x128 (constant (F := Ideal) S_ .f32 0x00000000#32)) _ _
    (zero_splat_apply bcast_S_S100000x128)]
  rfl

/-- The reference's result term, from the aggregated features on, is the perceptron of every row. -/
theorem layers_eq (h : FVec Ideal S100000x128 .f32) (x3 : FVec Ideal S128x128 .f32) (x4 : FVec Ideal S128 .f32)
    (x5 : FVec Ideal S128x128 .f32) (x6 : FVec Ideal S128 .f32) :
    addf (Host.dotGeneral dot_S100000x128_S128x128_S100000x128_1_0_0_1_n_n none
        (maximumf (addf (Host.dotGeneral dot_S100000x128_S128x128_S100000x128_1_0_0_1_n_n none h x3)
            (broadcastInDim S100000x128 ![0, 1] bcast_S1x128_S100000x128_0_1 (broadcastInDim S1x128 ![1] bcast_S128_S1x128_1 x4)))
          (broadcastInDim S100000x128 ![] bcast_S_S100000x128 (constant (F := Ideal) S_ .f32 0x00000000#32))) x5)
      (broadcastInDim S100000x128 ![0, 1] bcast_S1x128_S100000x128_0_1 (broadcastInDim S1x128 ![1] bcast_S128_S1x128_1 x6))
      = mlp 100000 h x3 x4 x5 x6 := by
  rw [dot_eq_plain]
  rw [reluDense_host (A := 100000) (K := 128) (N := 128) h x3 x4 bcast_S128_S1x128_1 bcast_S1x128_S100000x128_0_1
    bcast_S_S100000x128]
  exact dense_host (A := 100000) (K := 128) (N := 128) (reluDense 100000 128 128 h x3 x4) x5 x6 bcast_S128_S1x128_1
    bcast_S1x128_S100000x128_0_1

instance : Subsingleton Cert.Pre_finite_inputs.S_.Idx := ⟨fun a b => funext fun d => d.elim0⟩

/-- The precondition's last conjunct, read back: every destination index is nonnegative as a signed word. -/
theorem dst_nonneg (x0 : FVec Ideal Cert.Pre_finite_inputs.S100000x128 .f32) (x1 x2 : IVec Cert.Pre_finite_inputs.S1600000 32)
    (x3 : FVec Ideal Cert.Pre_finite_inputs.S128x128 .f32) (x4 : FVec Ideal Cert.Pre_finite_inputs.S128 .f32)
    (x5 : FVec Ideal Cert.Pre_finite_inputs.S128x128 .f32) (x6 : FVec Ideal Cert.Pre_finite_inputs.S128 .f32)
    (h : Cert.Pre_finite_inputs.fn (F := Ideal) x0 x1 x2 x3 x4 x5 x6 = fun _ => 1#1) (e : Cert.Pre_finite_inputs.S1600000.Idx) :
    0 ≤ (x2 e).toInt := by
  have e0 := congrFun h ValueIdx.ix0
  unfold Cert.Pre_finite_inputs.fn Cert.Pre_finite_inputs.fn_part1 at e0
  dsimp only at e0
  obtain ⟨-, e2⟩ := IntOp.andi_eq_one.1 e0
  have e3 := Host.reduce_andi_all _ _ _ _ ValueIdx.ix0 e2 e
  have e4 : IntOp.cmpi .sge (x2 e) 0#32 = 1#1 := e3
  have e5 := IntOp.cmpi_sge.1 e4
  have h0 : (0#32 : BitVec 32).toInt = 0 := by decide
  rw [h0] at e5
  exact e5

end Cert.ReferenceIdeal.Bridge

end
-- ==== Proof.lean ====
/-
  A graph-isomorphism layer: the kernel's program against its jnp reference, over the extended reals.

  Both programs gather the message rows feature[src(e)], sum them into the rows dst(e), add the features themselves
  (times one), and send each of the 100000 aggregated rows through a two-layer perceptron,
      out(r, c) = sum_k max( sum_j h(r, j) * W1(j, k) + b1(k), 0 ) * W2(k, c) + b2(c).
  The kernel's program scatter-adds the messages INTO the features, wrapping a negative destination index around the
  end, and runs the perceptron as a pallas_call over 20 tiles of 5000 rows with bf16-narrowed operands; the
  reference sums the messages into zeros at the destination indices as they are, adds the features afterwards, and
  multiplies whole matrices.

  At the ideal values narrowing to bf16 is the identity and a matrix product is the plain sum, in any tiling; an
  entry of the perceptron depends on its own row only, so the 20 tiles assemble to the perceptron of all rows
  (Proof/Tiles.lean over Proof/MlpTile.lean).  The two aggregations agree by x + S = x + (0 + S), which holds for
  every extended real, once the wrap does nothing: the precondition's added conjunct says every destination index is
  nonnegative (Proof/Reference.lean).  Finiteness of the float inputs is never used.

  The three frames are the generated ones (the reference's is its generated run with the result dropped); the ideal
  pass rewrote nothing, so the preservation claim is trivial.
-/
import proofs.«110534_j65240553226749_2_alg».proof.Defs
import proofs.«110534_j65240553226749_2_alg».proof.Proof.Gen.Kernel
import proofs.«110534_j65240553226749_2_alg».proof.Proof.Gen.Kernel.Skeleton
import proofs.«110534_j65240553226749_2_alg».proof.Proof.Gen.Kernel.Launch
import proofs.«110534_j65240553226749_2_alg».proof.Proof.Gen.Kernel.Points
import proofs.«110534_j65240553226749_2_alg».proof.Proof.Gen.Kernel.Frame
import proofs.«110534_j65240553226749_2_alg».proof.Proof.Gen.KernelIdeal
import proofs.«110534_j65240553226749_2_alg».proof.Proof.Gen.KernelIdeal.Skeleton
import proofs.«110534_j65240553226749_2_alg».proof.Proof.Gen.KernelIdeal.Launch
import proofs.«110534_j65240553226749_2_alg».proof.Proof.Gen.KernelIdeal.Points
import proofs.«110534_j65240553226749_2_alg».proof.Proof.Gen.KernelIdeal.Frame
import proofs.«110534_j65240553226749_2_alg».proof.Proof.Gen.ReferenceIdeal
import proofs.«110534_j65240553226749_2_alg».proof.Proof.Gen.KernelIdeal.Value
import proofs.«110534_j65240553226749_2_alg».proof.Proof.Gen.ReferenceIdeal.Run
import proofs.«110534_j65240553226749_2_alg».proof.Proof.Gen.Pre_finite_inputs
import proofs.«110534_j65240553226749_2_alg».proof.Proof.Tiles
import proofs.«110534_j65240553226749_2_alg».proof.Proof.Reference
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result array at the perceptron of the kernel program's aggregated features of the
    arguments: the kernel's by its tiles, the reference's by its two layers read entry by entry and the two
    aggregations agreeing where the destination indices are nonnegative. -/
theorem algebraic : Cert.algebraic_KernelIdeal_ReferenceIdeal := by
  intro m ρ m' ρ' hpre hagree
  refine ⟨_, Cert.KernelIdeal.Tiles.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  refine (Cert.ReferenceIdeal.Bridge.layers_eq _ _ _ _ _).trans ?_
  exact congrArg
    (fun H => Cert.Gin.mlp 100000 H (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)))
    (Cert.ReferenceIdeal.Bridge.aggregated_eq _ _ _ fun e =>
      Cert.ReferenceIdeal.Bridge.dst_nonneg _ _ _ _ _ _ _ (hpre c) e)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
